-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8192x4096, .bf16⟩
  | .hbm, ⟨4, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024x512_S1024x512_0_0 : ∀ a, (![0, 0] : Fin 2 → Nat) a + S1024x512.size a ≤ S1024x512.size a
  h_S1024x512 : 0 < S1024x512.numel
  natLt_1_32 : 1 < 32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x1024_S2048x1024 : S2048x1024.ShapeCasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S8192x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Tern.lean ====
/-
  The mathematics of a ternary-weight product, with no program in sight.

  A weight `w` contributes through the indicator of strict positivity, `ind w = 1` where `0 < w` and `0` elsewhere.
  One side contracts a row `x` against `ind wp - ind wn` in one sum.  The other side rebuilds each indicator as
  `w + (ind w - w)`, contracts the row against each of the two rebuilt weights, and subtracts the two sums.  On the
  extended reals the rebuilding `w + (ind w - w) = ind w` cancels only for a finite `w`, and the difference of two
  sums is the sum of the differences only when every product is finite: the law `ref_eq_kernel` is therefore stated
  for rows all of whose entries are real numbers, and proved by carrying the whole identity to `ℝ`.

  Also here: what a comparison bit denotes when it is read as a number (widened and read signed, or read
  unsigned: both are `ind`), and the split of a sum over `4096 = 8 · 512` columns into eight runs of `512`.
-/
import Idealize.ShloMosaic.PureOps.Ideal
import Idealize.ShloMosaic.PureOps.Ideal.Laws

noncomputable section

namespace Cert.Tern

open Idealize.ShloMosaic

/-- The indicator of strict positivity on the extended reals. -/
def ind (w : EReal) : EReal := if 0 < w then 1 else 0

/-- On a real number the indicator is the real indicator. -/
theorem ind_coe (r : ℝ) : ind (r : EReal) = (((if 0 < r then 1 else 0 : ℝ)) : EReal) := by
  unfold ind
  by_cases h : 0 < r
  · rw [if_pos h, if_pos (EReal.coe_pos.mpr h), EReal.coe_one]
  · rw [if_neg h, if_neg (fun h' => h (EReal.coe_pos.mp h')), EReal.coe_zero]

/-- The comparison `w > z` against a `z` that denotes zero, as a bit. -/
theorem cmp_ogt_zero (w z : EReal) (hz : z = 0) : Ideal.cmp .ogt w z = if 0 < w then 1#1 else 0#1 := by
  subst hz
  unfold Ideal.cmp
  by_cases h : (0 : EReal) < w <;> simp [h]

/-- That bit widened to 32 bits and read as a signed integer is the indicator. -/
theorem bit_signed (w z : EReal) (hz : z = 0) :
    (((((Ideal.cmp .ogt w z).setWidth 32).toInt : ℤ) : ℝ) : EReal) = ind w := by
  rw [cmp_ogt_zero w z hz]
  unfold ind
  by_cases h : (0 : EReal) < w
  · rw [if_pos h, if_pos h, show ((1#1 : BitVec 1).setWidth 32).toInt = 1 from by decide]; simp
  · rw [if_neg h, if_neg h, show ((0#1 : BitVec 1).setWidth 32).toInt = 0 from by decide]; simp

/-- The same bit read as an unsigned integer is the indicator too. -/
theorem bit_unsigned (w z : EReal) (hz : z = 0) :
    ((((Ideal.cmp .ogt w z).toNat : ℕ) : ℝ) : EReal) = ind w := by
  rw [cmp_ogt_zero w z hz]
  unfold ind
  by_cases h : (0 : EReal) < w
  · rw [if_pos h, if_pos h, show (1#1 : BitVec 1).toNat = 1 from by decide]; simp
  · rw [if_neg h, if_neg h, show (0#1 : BitVec 1).toNat = 0 from by decide]; simp

/-- The coercion of the reals into the extended reals passes through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW.  For rows of real numbers, contracting `x` against the two rebuilt weights `w + (ind w - w)` and
    subtracting is contracting `x` against `ind wp - ind wn`. -/
theorem ref_eq_kernel {ι : Type*} [Fintype ι] (x wp wn : ι → EReal)
    (hx : ∀ k, ∃ r : ℝ, x k = r) (hp : ∀ k, ∃ r : ℝ, wp k = r) (hn : ∀ k, ∃ r : ℝ, wn k = r) :
    (∑ k, x k * (wp k + (ind (wp k) - wp k))) - (∑ k, x k * (wn k + (ind (wn k) - wn k)))
      = ∑ k, x k * (ind (wp k) - ind (wn k)) := by
  choose xr hxr using hx
  choose pr hpr using hp
  choose nr hnr using hn
  obtain rfl : x = fun k => (xr k : EReal) := funext hxr
  obtain rfl : wp = fun k => (pr k : EReal) := funext hpr
  obtain rfl : wn = fun k => (nr k : EReal) := funext hnr
  simp only [ind_coe, ← EReal.coe_sub, ← EReal.coe_add, ← EReal.coe_mul, ← coe_sum]
  refine congrArg _ ?_
  rw [← Finset.sum_sub_distrib]
  exact Finset.sum_congr rfl fun k _ => by ring

/-- A sum over `4096 = 8 · 512` columns is the sum over the eight runs of the sums over each run's `512` columns. -/
theorem sum_blocks (g : Fin 4096 → EReal) :
    ∑ s : Fin 8, ∑ l : Fin 512, g ⟨512 * s.val + l.val, by have := s.isLt; have := l.isLt; omega⟩ = ∑ k : Fin 4096, g k := by
  have e : ∑ k : Fin 4096, g k = ∑ p : Fin 8 × Fin 512, g (finProdFinEquiv p) :=
    (Equiv.sum_comp (finProdFinEquiv (m := 8) (n := 512)) g).symm
  rw [e, Fintype.sum_prod_type]
  refine Finset.sum_congr rfl fun s _ => Finset.sum_congr rfl fun l _ => congrArg g (Fin.ext ?_)
  show 512 * s.val + l.val = l.val + 512 * s.val
  omega

end Cert.Tern

end
-- ==== Proof.Finite.lean ====
/-
  From the precondition to real numbers.

  The precondition is the conjunction, over the three argument arrays, of `all (|a| < +∞)`.  Its value being 1 says
  that at every index of every argument the comparison `|a| < +∞` holds; on the extended reals `|a| = max a (-a)` is
  `+∞` at both infinities, so each entry is a real number.  This is what the algebraic law between the two programs
  needs: cancelling `w + (ind w - w)` and pulling a difference of sums together both fail at an infinity.
-/
import proofs.«127935_j75874892251182_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

variable [Facts]

instance : Subsingleton S_.Idx := ⟨fun _ _ => funext fun d => d.elim0⟩

/-- The pattern the precondition compares against denotes `+∞`. -/
theorem inf_pattern : Ideal.ofBits .f32 0x7F800000#32 = (⊤ : EReal) := by simp [Ideal.ofBits, Ideal.ieee]

/-- An extended real whose absolute value is below `+∞` is a real number. -/
theorem real_of_abs_lt (x : EReal)
    (h : Ideal.cmp .olt (max x (-x)) (Ideal.ofBits .f32 0x7F800000#32) = 1#1) : ∃ r : ℝ, x = r := by
  rw [inf_pattern] at h
  induction x using EReal.rec with
  | bot => exfalso; simp [Ideal.cmp] at h
  | top => exfalso; simp [Ideal.cmp] at h
  | coe r => exact ⟨r, rfl⟩

/-- Under the precondition every entry of every argument is a real number. -/
theorem real_of_pre (x0 : FVec Ideal S8192x4096 .f32) (x1 x2 : FVec Ideal S4096x4096 .f32)
    (h : Cert.Pre_finite_inputs.fn (F := Ideal) x0 x1 x2 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [Cert.Pre_finite_inputs.fn] at h0
  obtain ⟨h01, h2⟩ := IntOp.andi_eq_one.1 h0
  obtain ⟨h0', h1'⟩ := IntOp.andi_eq_one.1 h01
  exact ⟨fun i => real_of_abs_lt _ (Host.reduce_andi_all _ _ _ _ _ h0' i),
    fun i => real_of_abs_lt _ (Host.reduce_andi_all _ _ _ _ _ h1' i),
    fun i => real_of_abs_lt _ (Host.reduce_andi_all _ _ _ _ _ h2 i)⟩

end Cert.Pre_finite_inputs.Finite

end
-- ==== Proof.RefSide.lean ====
/-
  The reference read at an index.

  The reference rebuilds each ternary weight as `w + (ind w - w)` (`ind w` the comparison `w > 0` read as a number),
  contracts the token row `x[p, ·]` against the rebuilt positive weights and against the rebuilt negative weights of
  output row `q`, and subtracts: at `(p, q)` it is
    `∑ k, x[p,k] · (wp[q,k] + (ind wp[q,k] - wp[q,k]))  -  ∑ k, x[p,k] · (wn[q,k] + (ind wn[q,k] - wn[q,k]))`.
  Each stage is read one operation at a time by the generated read-at-an-index lemmas; written here is only the
  identification of their index functions with `(p, k)` and `(q, k)`, and of the comparison bit with `ind`.
-/
import proofs.«127935_j75874892251182_2_alg».proof.Proof.Gen.ReferenceIdeal.Read
import proofs.«127935_j75874892251182_2_alg».proof.Proof.Tern

noncomputable section

namespace Cert.ReferenceIdeal.RefValue

open Cert.ReferenceIdeal Cert.ReferenceIdeal.Gen Cert.ReferenceIdeal.Read Idealize.ShloMosaic
open Idealize.ShloMosaic.ValueIdx (ix2)
open Cert.Tern (ind)

/-- The rebuilt positive weights at an index: `w + (ind w - w)`. -/
theorem rebuilt_pos (x1 : FVec Ideal S4096x4096 .f32) (j : S4096x4096.Idx) :
    val_main_v4 (F := Ideal) x1 j = x1 j + (ind (x1 j) - x1 j) := by
  show x1 j + (((((Ideal.cmp .ogt (x1 j) (Ideal.ofBits .f32 0x00000000#32)).toNat : ℕ) : ℝ) : EReal) - x1 j) = _
  rw [Cert.Tern.bit_unsigned _ _ Ideal.ofBits_zero_f32]

/-- The rebuilt negative weights at an index. -/
theorem rebuilt_neg (x2 : FVec Ideal S4096x4096 .f32) (j : S4096x4096.Idx) :
    val_main_v9 (F := Ideal) x2 j = x2 j + (ind (x2 j) - x2 j) := by
  show x2 j + (((((Ideal.cmp .ogt (x2 j) (Ideal.ofBits .f32 0x00000000#32)).toNat : ℕ) : ℝ) : EReal) - x2 j) = _
  rw [Cert.Tern.bit_unsigned _ _ Ideal.ofBits_zero_f32]

/-- The contraction's operand indices at output `(p, q)` and column `k` are `(p, k)` and `(q, k)`. -/
theorem lidx10 (p : Fin 8192) (q : Fin 4096) (k : Fin 4096) : lidx_main_v10 (ix2 p q) k = ix2 p k :=
  funext fun a => Fin.ext (by match a with | ⟨0, _⟩ => rfl | ⟨1, _⟩ => rfl)
theorem ridx10 (p : Fin 8192) (q : Fin 4096) (k : Fin 4096) : ridx_main_v10 (ix2 p q) k = ix2 q k :=
  funext fun a => Fin.ext (by match a with | ⟨0, _⟩ => rfl | ⟨1, _⟩ => rfl)
theorem lidx11 (p : Fin 8192) (q : Fin 4096) (k : Fin 4096) : lidx_main_v11 (ix2 p q) k = ix2 p k :=
  funext fun a => Fin.ext (by match a with | ⟨0, _⟩ => rfl | ⟨1, _⟩ => rfl)
theorem ridx11 (p : Fin 8192) (q : Fin 4096) (k : Fin 4096) : ridx_main_v11 (ix2 p q) k = ix2 q k :=
  funext fun a => Fin.ext (by match a with | ⟨0, _⟩ => rfl | ⟨1, _⟩ => rfl)

/-- The reference's result at `(p, q)`: the difference of the two contractions against the rebuilt weights. -/
theorem result_apply (x0 : FVec Ideal S8192x4096 .f32) (x1 x2 : FVec Ideal S4096x4096 .f32) (p : Fin 8192) (q : Fin 4096) :
    val_main_v12 (F := Ideal) x0 x1 x2 (ix2 p q)
      = (∑ k : Fin 4096, x0 (ix2 p k) * (x1 (ix2 q k) + (ind (x1 (ix2 q k)) - x1 (ix2 q k))))
        - (∑ k : Fin 4096, x0 (ix2 p k) * (x2 (ix2 q k) + (ind (x2 (ix2 q k)) - x2 (ix2 q k)))) := by
  rw [val_main_v12_apply, val_main_v10_apply, val_main_v11_apply]
  simp only [lidx10, ridx10, lidx11, ridx11, rebuilt_pos, rebuilt_neg]
  rfl

end Cert.ReferenceIdeal.RefValue

end
-- ==== Proof.KernelPay.lean ====
/-
  The kernel body's arithmetic at an index.

  At one grid point the body holds a [1024, 512] tile of the positive weights, the same tile of the negative
  weights, a [2048, 512] tile of the tokens, and the [2048, 1024] output tile as the point before left it.  It
  forms the ternary tile `ind wp - ind wn` (each comparison `w > 0` widened to 32 bits and read as a signed
  integer, which is the indicator), contracts the token tile against it over the 512 columns into a zero
  accumulator, and adds the result to the output tile.  At place `(a, b)` of the tile that is
    `old[a, b] + ∑ l < 512, x[a, l] · (ind wp[b, l] - ind wn[b, l])`.
  The tile the first point of a run starts from is zero.
-/
import proofs.«127935_j75874892251182_2_alg».proof.Proof.Gen.KernelIdeal.Skeleton
import proofs.«127935_j75874892251182_2_alg».proof.Proof.Tern
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen Idealize.ShloMosaic
open Idealize.ShloMosaic.ValueIdx (ix2)
open Cert.Tern (ind)

/-- The contraction of the body's product: tokens [2048, 512] against weights [1024, 512] over the second axis of both. -/
abbrev dotK : DotDims S2048x512 S1024x512 S2048x1024 := dot_S2048x512_S1024x512_S2048x1024_1_1_0_0_n_n

theorem lhs_0 (i : S2048x1024.Idx) (q : dotK.contr.Idx) : (dotK.lhsIdx i q 0).val = (i 0).val := by
  unfold DotDims.lhsIdx
  rw [dif_neg (show ¬(0 : Fin S2048x512.rank) ∈ dotK.lhsBatch by decide), dif_pos (show (0 : Fin S2048x512.rank) ∈ dotK.lhsNonContracting by decide)]
  rfl
theorem lhs_1 (i : S2048x1024.Idx) (q : dotK.contr.Idx) : (dotK.lhsIdx i q 1).val = (q ⟨0, by decide⟩).val :=
  dotK.lhsIdx_val_of_single rfl i q
theorem rhs_0 (i : S2048x1024.Idx) (q : dotK.contr.Idx) : (dotK.rhsIdx i q 0).val = (i 1).val := by
  unfold DotDims.rhsIdx
  rw [dif_neg (show ¬(0 : Fin S1024x512.rank) ∈ dotK.rhsBatch by decide), dif_pos (show (0 : Fin S1024x512.rank) ∈ dotK.rhsNonContracting by decide)]
  rfl
theorem rhs_1 (i : S2048x1024.Idx) (q : dotK.contr.Idx) : (dotK.rhsIdx i q 1).val = (q ⟨0, by decide⟩).val :=
  dotK.rhsIdx_val_of_single rfl i q

/-- The ternary tile as the body spells it: each weight tile compared with zero, the bit widened to 32 bits, read as
    a signed integer and narrowed to bf16 (no change at the ideal values); the difference of the two. -/
def tern (v3 v4 : FVec Ideal S1024x512 .f32) : FVec Ideal S1024x512 .bf16 :=
  subf
    (truncf .bf16 (sitofp .f32 (extui 32 (cmpf .ogt v3 (broadcast S1024x512 (Scalar.ofBits .f32 0x00000000#32))) natLt_1_32)) bitsLt_bf16_f32)
    (truncf .bf16 (sitofp .f32 (extui 32 (cmpf .ogt v4 (broadcast S1024x512 (Scalar.ofBits .f32 0x00000000#32))) natLt_1_32)) bitsLt_bf16_f32)

/-- At an index the ternary tile is the difference of the two indicators. -/
theorem tern_apply (v3 v4 : FVec Ideal S1024x512 .f32) (j : S1024x512.Idx) : tern v3 v4 j = ind (v3 j) - ind (v4 j) := by
  show (((((Ideal.cmp .ogt (v3 j) (Ideal.ofBits .f32 0x00000000#32)).setWidth 32).toInt : ℤ) : ℝ) : EReal)
      - (((((Ideal.cmp .ogt (v4 j) (Ideal.ofBits .f32 0x00000000#32)).setWidth 32).toInt : ℤ) : ℝ) : EReal) = _
  rw [Cert.Tern.bit_signed _ _ Ideal.ofBits_zero_f32, Cert.Tern.bit_signed _ _ Ideal.ofBits_zero_f32]

/-- The tile a run starts from is zero. -/
theorem pay1_apply (y : S2048x1024.Idx) : k0_pay1 (F := Ideal) y = 0 := by
  show Ideal.ofBits .f32 0x00000000#32 = 0
  exact Ideal.ofBits_zero_f32

/-- THE BODY AT A PLACE of the output tile: what was there plus the partial contraction over the point's 512 columns. -/
theorem pay2_apply (v3 v4 : FVec Ideal S1024x512 .f32) (v16 : FVec Ideal S2048x512 .bf16) (v19 : FVec Ideal S2048x1024 .f32)
    (a : Fin 2048) (b : Fin 1024) :
    k0_pay2 v3 v4 v16 v19 (ix2 a b)
      = v19 (ix2 a b) + ∑ l : Fin 512, v16 (ix2 a l) * (ind (v3 (ix2 b l)) - ind (v4 (ix2 b l))) := by
  unfold k0_pay2
  simp only [shapeCast_self]
  show v19 (ix2 a b) + FloatOps.matmul dotK none v16 (tern v3 v4) (constant S2048x1024 .f32 0x00000000#32) (ix2 a b) = _
  refine congrArg (v19 (ix2 a b) + ·) ?_
  refine (Ideal.matmul_constant_zero_apply dotK none v16 (tern v3 v4) (ix2 a b)).trans ?_
  rw [← Equiv.sum_comp (ValueIdx.contrEquiv1 dotK 512 rfl rfl).symm]
  refine Finset.sum_congr rfl fun l _ => ?_
  have hk := ValueIdx.contrEquiv1_symm_val dotK 512 rfl rfl l
  have el : dotK.lhsIdx (ix2 a b) ((ValueIdx.contrEquiv1 dotK 512 rfl rfl).symm l) = ix2 a l := funext fun d => Fin.ext (by
    match d with
    | ⟨0, _⟩ => exact lhs_0 _ _
    | ⟨1, _⟩ => exact (lhs_1 _ _).trans hk)
  have er : dotK.rhsIdx (ix2 a b) ((ValueIdx.contrEquiv1 dotK 512 rfl rfl).symm l) = ix2 b l := funext fun d => Fin.ext (by
    match d with
    | ⟨0, _⟩ => exact rhs_0 _ _
    | ⟨1, _⟩ => exact (rhs_1 _ _).trans hk)
  rw [el, er, tern_apply]

end Cert.KernelIdeal.Bridge

end
-- ==== Proof.KernelBlocks.lean ====
/-
  What the kernel's input tiles hold.

  The grid has 4 · 4 · 8 = 128 points, visited in row-major order: point `t` is (row block `t / 32`, column block
  `t / 8 % 4`, reduction step `t % 8`).  The token window's tile at `t` is rows `2048·(t/32) …` and columns
  `512·(t%8) …` of the token array; each weight window's tile is rows `1024·(t/8%4) …` and columns `512·(t%8) …`
  of its weight array.  The token array the region finds was narrowed to bf16 by the host first: at the ideal
  values a change of format is the identity, so it is the token argument itself.
-/
import proofs.«127935_j75874892251182_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.ValueIdx (ix2)

variable (m : (ℓ : Loc nD τ sig) → Buf (Elt Ideal) ℓ)

/-- The printed index maps, decided over the grid. -/
theorem idx_x : ∀ t : Fin cfg0.N, win0_0.index t (0 : Fin 2) = t.val / 32 % 4 ∧ win0_0.index t (1 : Fin 2) = t.val % 8 :=
  (by decide +kernel : ∀ t : Fin grid0.N, _)
theorem idx_wp : ∀ t : Fin cfg0.N, win0_1.index t (0 : Fin 2) = t.val / 8 % 4 ∧ win0_1.index t (1 : Fin 2) = t.val % 8 :=
  (by decide +kernel : ∀ t : Fin grid0.N, _)
theorem idx_wn : ∀ t : Fin cfg0.N, win0_2.index t (0 : Fin 2) = t.val / 8 % 4 ∧ win0_2.index t (1 : Fin 2) = t.val % 8 :=
  (by decide +kernel : ∀ t : Fin grid0.N, _)

/-- The token array as the region finds it: the host's narrowing to bf16 of the token argument, which at the ideal
    values is the argument. -/
theorem V_tokens (c : Dev nD) (i : S8192x4096.Idx) :
    V m c main_v0 i = m ((c : Thread nD τ).loc main_arg0) i := by
  have e : V m c main_v0
      = ((truncf (F := Ideal) .bf16 · bitsLt_bf16_f32) : (⟨S8192x4096, .f32⟩ : BufTy).Contents (Elt Ideal) → (⟨S8192x4096, .bf16⟩ : BufTy).Contents (Elt Ideal))
          (m ((c : Thread nD τ).loc main_arg0)) := by
    dsimp only [Gen.V, Gen.hostOps0]; after_results
  rw [e]; rfl

/-- The token tile at point `t`, place `(a, l)`. -/
theorem x_block (c : Dev nD) (t : Fin cfg0.N) (a : Fin 2048) (l : Fin 512) :
    (iblk m c 0 t : FVec Ideal S2048x512 .bf16) (ix2 a l)
      = m ((c : Thread nD τ).loc main_arg0)
          (ix2 (⟨t.val / 32 % 4 * 2048 + a.val, by have := a.isLt; omega⟩ : Fin 8192)
               (⟨t.val % 8 * 512 + l.val, by have := l.isLt; omega⟩ : Fin 4096)) := by
  obtain ⟨e0, e1⟩ := idx_x t
  unfold iblk
  rw [View.read_apply]
  show V m c main_v0 _ = _
  rw [V_tokens]
  refine congrArg _ (funext fun d => Fin.ext ?_)
  match d with
  | ⟨0, _⟩ => show win0_0.index t (0 : Fin 2) * 2048 + 1 * a.val = t.val / 32 % 4 * 2048 + a.val; rw [e0]; omega
  | ⟨1, _⟩ => show win0_0.index t (1 : Fin 2) * 512 + 1 * l.val = t.val % 8 * 512 + l.val; rw [e1]; omega

/-- The positive-weight tile at point `t`, place `(b, l)`. -/
theorem wp_block (c : Dev nD) (t : Fin cfg0.N) (b : Fin 1024) (l : Fin 512) :
    (iblk m c 1 t : FVec Ideal S1024x512 .f32) (ix2 b l)
      = m ((c : Thread nD τ).loc main_arg1)
          (ix2 (⟨t.val / 8 % 4 * 1024 + b.val, by have := b.isLt; omega⟩ : Fin 4096)
               (⟨t.val % 8 * 512 + l.val, by have := l.isLt; omega⟩ : Fin 4096)) := by
  obtain ⟨e0, e1⟩ := idx_wp t
  unfold iblk
  rw [View.read_apply]
  show V m c main_arg1 _ = _
  rw [V_main_arg1]
  refine congrArg _ (funext fun d => Fin.ext ?_)
  match d with
  | ⟨0, _⟩ => show win0_1.index t (0 : Fin 2) * 1024 + 1 * b.val = t.val / 8 % 4 * 1024 + b.val; rw [e0]; omega
  | ⟨1, _⟩ => show win0_1.index t (1 : Fin 2) * 512 + 1 * l.val = t.val % 8 * 512 + l.val; rw [e1]; omega

/-- The negative-weight tile at point `t`, place `(b, l)`. -/
theorem wn_block (c : Dev nD) (t : Fin cfg0.N) (b : Fin 1024) (l : Fin 512) :
    (iblk m c 2 t : FVec Ideal S1024x512 .f32) (ix2 b l)
      = m ((c : Thread nD τ).loc main_arg2)
          (ix2 (⟨t.val / 8 % 4 * 1024 + b.val, by have := b.isLt; omega⟩ : Fin 4096)
               (⟨t.val % 8 * 512 + l.val, by have := l.isLt; omega⟩ : Fin 4096)) := by
  obtain ⟨e0, e1⟩ := idx_wn t
  unfold iblk
  rw [View.read_apply]
  show V m c main_arg2 _ = _
  rw [V_main_arg2]
  refine congrArg _ (funext fun d => Fin.ext ?_)
  match d with
  | ⟨0, _⟩ => show win0_2.index t (0 : Fin 2) * 1024 + 1 * b.val = t.val / 8 % 4 * 1024 + b.val; rw [e0]; omega
  | ⟨1, _⟩ => show win0_2.index t (1 : Fin 2) * 512 + 1 * l.val = t.val % 8 * 512 + l.val; rw [e1]; omega

end Cert.KernelIdeal.Bridge

end
-- ==== Proof.KernelFold.lean ====
/-
  The kernel's result at an index.

  The output array is tiled 4 × 4 by [2048, 1024] tiles; the tile holding `(p, q)` is filled by the run of eight
  consecutive grid points `8·r … 8·r + 7`, `r = 4·(p / 2048) + q / 1024`: the first point starts from zero and adds
  its partial contraction, each later point adds its own to what the point before left.  So the fold of the run, at
  the place `(p % 2048, q % 1024)` of the tile, is `0 +` the sum over the eight points of the points' partial
  contractions; point `8·r + s` contracts over columns `512·s … 512·s + 511` of row `p` of the tokens against row
  `q` of the ternary weights, and the eight runs of 512 columns are the 4096 columns:
    `result[p, q] = ∑ k < 4096, x[p, k] · (ind wp[q, k] - ind wn[q, k])`.
-/
import proofs.«127935_j75874892251182_2_alg».proof.Proof.Gen.KernelIdeal.Value
import proofs.«127935_j75874892251182_2_alg».proof.Proof.KernelPay
import proofs.«127935_j75874892251182_2_alg».proof.Proof.KernelBlocks

noncomputable section

namespace Cert.KernelIdeal.Bridge

open Cert.KernelIdeal Cert.KernelIdeal.Gen Idealize.ShloMosaic Idealize.ShloMosaic.TcCoe Idealize.SL.Sem
open Idealize.ShloMosaic.ValueIdx (ix2)
open Cert.Tern (ind)

/-- One column's term of the contraction at `(p, q)`. -/
def colTerm (X : FVec Ideal S8192x4096 .f32) (WP WN : FVec Ideal S4096x4096 .f32) (p : Fin 8192) (q : Fin 4096)
    (k : Fin 4096) : EReal :=
  X (ix2 p k) * (ind (WP (ix2 q k)) - ind (WN (ix2 q k)))

/-- The partial contraction grid point `n` adds at place `y` of its output tile: over the point's 512 columns, of the
    token row and the weight row the place stands for (the block numbers read off `n`, reduced so that the term is
    defined at every natural number). -/
def addend (X : FVec Ideal S8192x4096 .f32) (WP WN : FVec Ideal S4096x4096 .f32) (n : ℕ) (y : S2048x1024.Idx) : EReal :=
  ∑ l : Fin 512, colTerm X WP WN
    (⟨n / 32 % 4 * 2048 + (y 0).val, by have := ValueIdx.idx2_lt0 y; omega⟩ : Fin 8192)
    (⟨n / 8 % 4 * 1024 + (y 1).val, by have := ValueIdx.idx2_lt1 y; omega⟩ : Fin 4096)
    (⟨n % 8 * 512 + l.val, by have := l.isLt; omega⟩ : Fin 4096)

variable (m : (ℓ : Loc nD τ sig) → Buf (Elt Ideal) ℓ)

/-- A later point of a run adds its partial contraction to what the point before left. -/
theorem step_apply (c : Dev nD) (n : ℕ) (h : n < cfg0.N) (acc : FVec Ideal S2048x1024 .f32) (y : S2048x1024.Idx) :
    Value.step3 m c n h acc y
      = acc y + addend (m ((c : Thread nD τ).loc main_arg0)) (m ((c : Thread nD τ).loc main_arg1))
          (m ((c : Thread nD τ).loc main_arg2)) n y := by
  obtain ⟨a, b, rfl⟩ : ∃ (a : Fin 2048) (b : Fin 1024), y = ix2 a b := ⟨y 0, y 1, ValueIdx.eq_ix2 y⟩
  unfold Value.step3
  refine (pay2_apply (iblk m c 1 ⟨n, h⟩) (iblk m c 2 ⟨n, h⟩) (iblk m c 0 ⟨n, h⟩) acc a b).trans ?_
  refine congrArg (acc (ix2 a b) + ·) ?_
  unfold addend colTerm
  refine Finset.sum_congr rfl fun l _ => ?_
  rw [x_block m c ⟨n, h⟩ a l, wp_block m c ⟨n, h⟩ b l, wn_block m c ⟨n, h⟩ b l]

/-- The first point of a run starts from zero. -/
theorem reset_apply (c : Dev nD) (n : ℕ) (h : n < cfg0.N) (y : S2048x1024.Idx) :
    Value.reset3 m c n h y
      = 0 + addend (m ((c : Thread nD τ).loc main_arg0)) (m ((c : Thread nD τ).loc main_arg1))
          (m ((c : Thread nD τ).loc main_arg2)) n y := by
  have e : Value.reset3 m c n h = Value.step3 m c n h (k0_pay1 (F := Ideal)) := rfl
  rw [e, step_apply, pay1_apply]

/-- The partial contraction of point `8·r + s` of the run that fills `(p, q)`'s tile, at `(p, q)`'s place in the
    tile, is the contraction at `(p, q)` over the columns `512·s … 512·s + 511`. -/
theorem addend_run (X : FVec Ideal S8192x4096 .f32) (WP WN : FVec Ideal S4096x4096 .f32) (p : Fin 8192) (q : Fin 4096)
    (s : Fin 8) (n : ℕ) (hn : n = 8 * (4 * (p.val / 2048) + q.val / 1024) + s.val)
    (y : S2048x1024.Idx) (hy0 : (y 0).val = p.val % 2048) (hy1 : (y 1).val = q.val % 1024) :
    addend X WP WN n y
      = ∑ l : Fin 512, colTerm X WP WN p q ⟨512 * s.val + l.val, by have := s.isLt; have := l.isLt; omega⟩ := by
  unfold addend
  refine Finset.sum_congr rfl fun l _ => ?_
  have hp := p.isLt
  have hq := q.isLt
  have hs := s.isLt
  have hl := l.isLt
  have e0 : (⟨n / 32 % 4 * 2048 + (y 0).val, by have := ValueIdx.idx2_lt0 y; omega⟩ : Fin 8192) = p :=
    Fin.ext (by show n / 32 % 4 * 2048 + (y 0).val = p.val; omega)
  have e1 : (⟨n / 8 % 4 * 1024 + (y 1).val, by have := ValueIdx.idx2_lt1 y; omega⟩ : Fin 4096) = q :=
    Fin.ext (by show n / 8 % 4 * 1024 + (y 1).val = q.val; omega)
  have e2 : (⟨n % 8 * 512 + l.val, by omega⟩ : Fin 4096) = ⟨512 * s.val + l.val, by omega⟩ :=
    Fin.ext (by show n % 8 * 512 + l.val = 512 * s.val + l.val; omega)
  rw [e0, e1, e2]

/-- THE KERNEL'S RESULT at `(p, q)`: the contraction of the token row `p` against row `q` of the ternary weights. -/
theorem G3_apply (c : Dev nD) (p : Fin 8192) (q : Fin 4096) :
    Value.G3 m c (ix2 p q)
      = ∑ k : Fin 4096, colTerm (m ((c : Thread nD τ).loc main_arg0)) (m ((c : Thread nD τ).loc main_arg1))
          (m ((c : Thread nD τ).loc main_arg2)) p q k := by
  have hp := p.isLt
  have hq := q.isLt
  have hN : cfg0.N = 128 := N_0
  have hr : Value.run3Of (ix2 p q) = 4 * (p.val / 2048) + q.val / 1024 := by
    show 4 * (p.val / 2048 - 0) + 1 * (q.val / 1024 - 0) = _
    omega
  have hb : 8 * Value.run3Of (ix2 p q) + 7 < cfg0.N := by rw [hr, hN]; omega
  unfold Value.G3
  rw [dif_pos hb]
  refine (Pipeline.accAt_add_apply (ι := S2048x1024.Idx) (β := EReal) (Value.reset3 m c) (Value.step3 m c) (fun _ => (0 : EReal))
    (addend (m ((c : Thread nD τ).loc main_arg0)) (m ((c : Thread nD τ).loc main_arg1)) (m ((c : Thread nD τ).loc main_arg2)))
    (8 * Value.run3Of (ix2 p q)) 7
    (fun h y => reset_apply m c _ h y) (fun n h acc y _ _ => step_apply m c n h acc y) 7 le_rfl hb
    (Value.loc3Of (ix2 p q))).trans ?_
  rw [zero_add, Finset.sum_range, ← Cert.Tern.sum_blocks]
  refine Finset.sum_congr rfl fun s _ => ?_
  exact addend_run _ _ _ p q s _ (by rw [hr]) _ rfl rfl

end Cert.KernelIdeal.Bridge

end
-- ==== Proof.lean ====
/-
  A ternary-weight linear layer: `y = x · (1[w⁺ > 0] - 1[w⁻ > 0])ᵀ` over tokens [8192, 4096] and two weight arrays
  [4096, 4096].

  The kernel tiles the output 4 × 4, and for each tile walks the 4096 columns in eight steps of 512: it zeroes the
  tile at the first step and at every step adds the product of the token tile with the ternary tile
  `1[w⁺ > 0] - 1[w⁻ > 0]` formed on the spot.  At the ideal values its result at `(p, q)` is
    `∑ k, x[p,k] · (ind w⁺[q,k] - ind w⁻[q,k])`
  (Proof/KernelPay.lean: the body at a place; Proof/KernelBlocks.lean: what the tiles hold; Proof/KernelFold.lean: the
  eight steps summed and the eight runs of columns put together).

  The reference rebuilds each indicator as `w + (ind w - w)`, multiplies the tokens by the rebuilt positive weights and
  by the rebuilt negative ones in two whole products, and subtracts (Proof/RefSide.lean).

  The two agree where every entry is a real number: there `w + (ind w - w) = ind w`, and the difference of the two
  sums is the sum of the differences (Proof/Tern.lean).  Neither step holds at an infinity, so the precondition —
  every input finite — is used, through Proof/Finite.lean.

  The three frames are the generated ones; the kernel's idealization rewrote nothing, so `preserves` is trivial.
-/
import proofs.«127935_j75874892251182_2_alg».proof.Defs
import proofs.«127935_j75874892251182_2_alg».proof.Proof.Gen.Kernel.Frame
import proofs.«127935_j75874892251182_2_alg».proof.Proof.Gen.KernelIdeal.Value
import proofs.«127935_j75874892251182_2_alg».proof.Proof.Gen.Pre_finite_inputs
import proofs.«127935_j75874892251182_2_alg».proof.Proof.Gen.ReferenceIdeal.Run
import proofs.«127935_j75874892251182_2_alg».proof.Proof.Gen.ReferenceIdeal.Read
import proofs.«127935_j75874892251182_2_alg».proof.Proof.Tern
import proofs.«127935_j75874892251182_2_alg».proof.Proof.Finite
import proofs.«127935_j75874892251182_2_alg».proof.Proof.RefSide
import proofs.«127935_j75874892251182_2_alg».proof.Proof.KernelFold
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Under the precondition the reference's result is the kernel's, index by index: both sides read at `(p, q)`, every
    entry a real number, and the law of Proof/Tern.lean. -/
theorem result_eq (x0 : FVec Ideal Cert.KernelIdeal.S8192x4096 .f32) (x1 x2 : FVec Ideal Cert.KernelIdeal.S4096x4096 .f32)
    (hpre : Cert.Pre_finite_inputs.fn (F := Ideal) x0 x1 x2 = fun _ => 1#1) (p : Fin 8192) (q : Fin 4096) :
    Cert.ReferenceIdeal.Read.val_main_v12 (F := Ideal) x0 x1 x2 (ValueIdx.ix2 p q)
      = ∑ k : Fin 4096, Cert.KernelIdeal.Bridge.colTerm x0 x1 x2 p q k := by
  obtain ⟨h0, h1, h2⟩ := Cert.Pre_finite_inputs.Finite.real_of_pre x0 x1 x2 hpre
  rw [Cert.ReferenceIdeal.RefValue.result_apply]
  exact Cert.Tern.ref_eq_kernel _ _ _ (fun k => h0 _) (fun k => h1 _) (fun k => h2 _)

theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v12_eq]
  funext i
  obtain ⟨p, q, rfl⟩ : ∃ (p : Fin 8192) (q : Fin 4096), i = ValueIdx.ix2 p q := ⟨i 0, i 1, ValueIdx.eq_ix2 i⟩
  rw [Cert.KernelIdeal.Bridge.G3_apply]
  exact result_eq _ _ _ (hpre c) p q

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
